-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x376832 : Shape := ⟨3, ![1, 1, 376832]⟩
abbrev S67108864 : Shape := ⟨1, ![67108864]⟩
abbrev S65536 : Shape := ⟨1, ![65536]⟩
abbrev S_ : Shape := ⟨0, ![]⟩

class Facts : Prop where
  bcast_S_S1x1x376832 : S_.BroadcastsInDim S1x1x376832 (![] : Fin 0 → Fin S1x1x376832.rank)
  reducesTo_S1x1x376832_S_d0_1_2 : S1x1x376832.ReducesTo [0, 1, 2] S_
  h_S_ : 0 < S_.numel
  bcast_S_S67108864 : S_.BroadcastsInDim S67108864 (![] : Fin 0 → Fin S67108864.rank)
  reducesTo_S67108864_S_d0 : S67108864.ReducesTo [0] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S1x1x376832 .f32) (main_arg1 : FVec F S67108864 .f32) (main_arg2 : FVec F S65536 .f32) (main_arg3 : IVec S67108864 32) : IVec S_ 1 :=
  let main_v0 : FVec F S1x1x376832 .f32 := Host.absf main_arg0
  let main_cst : FVec F S_ .f32 := constant S_ .f32 0x7F800000#32
  let main_v1 : FVec F S1x1x376832 .f32 := broadcastInDim S1x1x376832 ![] bcast_S_S1x1x376832 main_cst
  let main_v2 : IVec S1x1x376832 1 := cmpf .olt main_v0 main_v1
  let main_c : IVec S_ 1 := constantI S_ 1 1#1
  let main_v3 : IVec S_ 1 := (fun x v => Host.reduce IntOp.andi x v reducesTo_S1x1x376832_S_d0_1_2 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S1x1x376832 : Shape := ⟨3, ![1, 1, 376832]⟩
abbrev S67108864 : Shape := ⟨1, ![67108864]⟩
abbrev S65536 : Shape := ⟨1, ![65536]⟩
abbrev S376832 : Shape := ⟨1, ![376832]⟩
abbrev S_ : Shape := ⟨0, ![]⟩
abbrev S67108864x1 : Shape := ⟨2, ![67108864, 1]⟩
abbrev S1 : Shape := ⟨1, ![1]⟩
abbrev S1x1 : Shape := ⟨2, ![1, 1]⟩
abbrev S65536x1024 : Shape := ⟨2, ![65536, 1024]⟩
abbrev S65536x1 : Shape := ⟨2, ![65536, 1]⟩
abbrev S1024x1024 : Shape := ⟨2, ![1024, 1024]⟩
abbrev S1024x1 : Shape := ⟨2, ![1024, 1]⟩
abbrev S1024 : Shape := ⟨1, ![1024]⟩
abbrev S256x256 : Shape := ⟨2, ![256, 256]⟩
abbrev S1x1x256x256 : Shape := ⟨4, ![1, 1, 256, 256]⟩

abbrev nBuf : Space → Nat
  | .hbm => 34
  | .vmem => 8
  | .smem => 0
  | _ => 0

abbrev bufTy : (tb : Table) → Fin (tcTables nBuf tb) → BufTy
  | .hbm, ⟨0, _⟩ => ⟨S1x1x376832, .f32⟩
  | .hbm, ⟨1, _⟩ => ⟨S67108864, .f32⟩
  | .hbm, ⟨2, _⟩ => ⟨S65536, .f32⟩
  | .hbm, ⟨3, _⟩ => ⟨S67108864, .i32⟩
  | .hbm, ⟨4, _⟩ => ⟨S376832, .f32⟩
  | .hbm, ⟨5, _⟩ => ⟨S_, .i32⟩
  | .hbm, ⟨6, _⟩ => ⟨S67108864, .i32⟩
  | .hbm, ⟨7, _⟩ => ⟨S67108864, .i1⟩
  | .hbm, ⟨8, _⟩ => ⟨S_, .i32⟩
  | .hbm, ⟨9, _⟩ => ⟨S67108864, .i32⟩
  | .hbm, ⟨10, _⟩ => ⟨S67108864, .i32⟩
  | .hbm, ⟨11, _⟩ => ⟨S67108864, .i32⟩
  | .hbm, ⟨12, _⟩ => ⟨S67108864x1, .i32⟩
  | .hbm, ⟨13, _⟩ => ⟨S1, .i32⟩
  | .hbm, ⟨14, _⟩ => ⟨S_, .i32⟩
  | .hbm, ⟨15, _⟩ => ⟨S67108864x1, .i32⟩
  | .hbm, ⟨16, _⟩ => ⟨S67108864x1, .i1⟩
  | .hbm, ⟨17, _⟩ => ⟨S1x1, .i32⟩
  | .hbm, ⟨18, _⟩ => ⟨S67108864x1, .i32⟩
  | .hbm, ⟨19, _⟩ => ⟨S67108864x1, .i1⟩
  | .hbm, ⟨20, _⟩ => ⟨S67108864x1, .i1⟩
  | .hbm, ⟨21, _⟩ => ⟨S_, .i1⟩
  | .hbm, ⟨22, _⟩ => ⟨S67108864, .i1⟩
  | .hbm, ⟨23, _⟩ => ⟨S67108864, .f32⟩
  | .hbm, ⟨24, _⟩ => ⟨S_, .f32⟩
  | .hbm, ⟨25, _⟩ => ⟨S67108864, .f32⟩
  | .hbm, ⟨26, _⟩ => ⟨S67108864, .f32⟩
  | .hbm, ⟨27, _⟩ => ⟨S65536x1024, .f32⟩
  | .hbm, ⟨28, _⟩ => ⟨S65536x1024, .f32⟩
  | .hbm, ⟨29, _⟩ => ⟨S65536x1, .f32⟩
  | .hbm, ⟨30, _⟩ => ⟨S65536x1, .f32⟩
  | .hbm, ⟨31, _⟩ => ⟨S256x256, .f32⟩
  | .hbm, ⟨32, _⟩ => ⟨S256x256, .f32⟩
  | .hbm, ⟨33, _⟩ => ⟨S1x1x256x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S1x1x376832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1x376832_S376832 : S1x1x376832.ShapeCasts S376832
  bcast_S_S67108864 : S_.BroadcastsInDim S67108864 (![] : Fin 0 → Fin S67108864.rank)
  bcast_S67108864_S67108864x1_0 : S67108864.BroadcastsInDim S67108864x1 (![0] : Fin 1 → Fin S67108864x1.rank)
  bcast_S_S67108864x1 : S_.BroadcastsInDim S67108864x1 (![] : Fin 0 → Fin S67108864x1.rank)
  bcast_S1_S1x1_1 : S1.BroadcastsInDim S1x1 (![1] : Fin 1 → Fin S1x1.rank)
  bcast_S1x1_S67108864x1_0_1 : S1x1.BroadcastsInDim S67108864x1 (![0, 1] : Fin 2 → Fin S67108864x1.rank)
  reducesTo_S67108864x1_S67108864_d1 : S67108864x1.ReducesTo [1] S67108864
  h_S_ : 0 < S_.numel
  shapeCasts_S67108864_S65536x1024 : S67108864.ShapeCasts S65536x1024
  shapeCasts_S65536_S65536x1 : S65536.ShapeCasts S65536x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S65536x1_S256x256 : S65536x1.ShapeCasts S256x256
  shapeCasts_S256x256_S1x1x256x256 : S256x256.ShapeCasts S1x1x256x256
  gather_S376832_S67108864x1_S67108864_n_0_n_n_0_1_1_wf : GatherDims.WF S376832 S67108864x1 S67108864 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .f32 = 32 ∨ (Rect.block (s := S65536x1) S1024x1.size (cc0_transform_3 i) (hinb0_3 i)).WholeWords (EltTy.packing .f32)

variable [Facts₀]

def gather_S376832_S67108864x1_S67108864_n_0_n_n_0_1_1 : GatherDims S376832 S67108864x1 S67108864 where
  offsetDims := []
  collapsedSliceDims := [0]
  operandBatchingDims := []
  startIndicesBatchingDims := []
  startIndexMap := [0]
  indexVectorDim := 1
  sliceSizes := ![1]
  wf := gather_S376832_S67108864x1_S67108864_n_0_n_n_0_1_1_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1x376832 : Shape := ⟨3, ![1, 1, 376832]⟩
abbrev S67108864 : Shape := ⟨1, ![67108864]⟩
abbrev S65536 : Shape := ⟨1, ![65536]⟩
abbrev S_ : Shape := ⟨0, ![]⟩
abbrev S67108864x1 : Shape := ⟨2, ![67108864, 1]⟩
abbrev S1 : Shape := ⟨1, ![1]⟩
abbrev S1x1 : Shape := ⟨2, ![1, 1]⟩
abbrev S1x1x67108864 : Shape := ⟨3, ![1, 1, 67108864]⟩
abbrev S1x1x65536x1024 : Shape := ⟨4, ![1, 1, 65536, 1024]⟩
abbrev S1x1x65536 : Shape := ⟨3, ![1, 1, 65536]⟩
abbrev S1x1x256x256 : Shape := ⟨4, ![1, 1, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S1x1x376832, .f32⟩
  | .hbm, ⟨1, _⟩ => ⟨S67108864, .f32⟩
  | .hbm, ⟨2, _⟩ => ⟨S65536, .f32⟩
  | .hbm, ⟨3, _⟩ => ⟨S67108864, .i32⟩
  | .hbm, ⟨4, _⟩ => ⟨S_, .i32⟩
  | .hbm, ⟨5, _⟩ => ⟨S67108864, .i32⟩
  | .hbm, ⟨6, _⟩ => ⟨S67108864, .i1⟩
  | .hbm, ⟨7, _⟩ => ⟨S_, .i32⟩
  | .hbm, ⟨8, _⟩ => ⟨S67108864, .i32⟩
  | .hbm, ⟨9, _⟩ => ⟨S67108864, .i32⟩
  | .hbm, ⟨10, _⟩ => ⟨S67108864, .i32⟩
  | .hbm, ⟨11, _⟩ => ⟨S67108864x1, .i32⟩
  | .hbm, ⟨12, _⟩ => ⟨S1, .i32⟩
  | .hbm, ⟨13, _⟩ => ⟨S_, .i32⟩
  | .hbm, ⟨14, _⟩ => ⟨S67108864x1, .i32⟩
  | .hbm, ⟨15, _⟩ => ⟨S67108864x1, .i1⟩
  | .hbm, ⟨16, _⟩ => ⟨S1x1, .i32⟩
  | .hbm, ⟨17, _⟩ => ⟨S67108864x1, .i32⟩
  | .hbm, ⟨18, _⟩ => ⟨S67108864x1, .i1⟩
  | .hbm, ⟨19, _⟩ => ⟨S67108864x1, .i1⟩
  | .hbm, ⟨20, _⟩ => ⟨S_, .i1⟩
  | .hbm, ⟨21, _⟩ => ⟨S67108864, .i1⟩
  | .hbm, ⟨22, _⟩ => ⟨S1x1x67108864, .f32⟩
  | .hbm, ⟨23, _⟩ => ⟨S1x1x67108864, .i1⟩
  | .hbm, ⟨24, _⟩ => ⟨S_, .f32⟩
  | .hbm, ⟨25, _⟩ => ⟨S1x1x67108864, .f32⟩
  | .hbm, ⟨26, _⟩ => ⟨S1x1x67108864, .f32⟩
  | .hbm, ⟨27, _⟩ => ⟨S1x1x67108864, .f32⟩
  | .hbm, ⟨28, _⟩ => ⟨S1x1x67108864, .f32⟩
  | .hbm, ⟨29, _⟩ => ⟨S1x1x65536x1024, .f32⟩
  | .hbm, ⟨30, _⟩ => ⟨S_, .f32⟩
  | .hbm, ⟨31, _⟩ => ⟨S1x1x65536, .f32⟩
  | .hbm, ⟨32, _⟩ => ⟨S_, .f32⟩
  | .hbm, ⟨33, _⟩ => ⟨S1x1x65536, .f32⟩
  | .hbm, ⟨34, _⟩ => ⟨S1x1x65536, .f32⟩
  | .hbm, ⟨35, _⟩ => ⟨S1x1x65536, .f32⟩
  | .hbm, ⟨36, _⟩ => ⟨S1x1x65536, .f32⟩
  | .hbm, ⟨37, _⟩ => ⟨S1x1x256x256, .f32⟩
  | .hbm, ⟨38, _⟩ => ⟨S1x1x256x256, .f32⟩
  | _, _ => ⟨S1x1x376832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  bcast_S67108864_S67108864x1_0 : S67108864.BroadcastsInDim S67108864x1 (![0] : Fin 1 → Fin S67108864x1.rank)
  bcast_S_S67108864x1 : S_.BroadcastsInDim S67108864x1 (![] : Fin 0 → Fin S67108864x1.rank)
  bcast_S1_S1x1_1 : S1.BroadcastsInDim S1x1 (![1] : Fin 1 → Fin S1x1.rank)
  bcast_S1x1_S67108864x1_0_1 : S1x1.BroadcastsInDim S67108864x1 (![0, 1] : Fin 2 → Fin S67108864x1.rank)
  reducesTo_S67108864x1_S67108864_d1 : S67108864x1.ReducesTo [1] S67108864
  h_S_ : 0 < S_.numel
  bcast_S67108864_S1x1x67108864_2 : S67108864.BroadcastsInDim S1x1x67108864 (![2] : Fin 1 → Fin S1x1x67108864.rank)
  bcast_S_S1x1x67108864 : S_.BroadcastsInDim S1x1x67108864 (![] : Fin 0 → Fin S1x1x67108864.rank)
  shapeCasts_S1x1x67108864_S1x1x65536x1024 : S1x1x67108864.ShapeCasts S1x1x65536x1024
  reducesTo_S1x1x65536x1024_S1x1x65536_d3 : S1x1x65536x1024.ReducesTo [3] S1x1x65536
  bcast_S_S1x1x65536 : S_.BroadcastsInDim S1x1x65536 (![] : Fin 0 → Fin S1x1x65536.rank)
  bcast_S65536_S1x1x65536_2 : S65536.BroadcastsInDim S1x1x65536 (![2] : Fin 1 → Fin S1x1x65536.rank)
  shapeCasts_S1x1x65536_S1x1x256x256 : S1x1x65536.ShapeCasts S1x1x256x256
  gather_S1x1x376832_S67108864x1_S1x1x67108864_01_2_n_n_2_1_111_wf : GatherDims.WF S1x1x376832 S67108864x1 S1x1x67108864 [0, 1] [2] [] [2] [] 1 ![1, 1, 1]

variable [Facts₀]

def gather_S1x1x376832_S67108864x1_S1x1x67108864_01_2_n_n_2_1_111 : GatherDims S1x1x376832 S67108864x1 S1x1x67108864 where
  offsetDims := [0, 1]
  collapsedSliceDims := [2]
  operandBatchingDims := []
  startIndicesBatchingDims := []
  startIndexMap := [2]
  indexVectorDim := 1
  sliceSizes := ![1, 1, 1]
  wf := gather_S1x1x376832_S67108864x1_S1x1x67108864_01_2_n_n_2_1_111_wf

class Facts : Prop extends Facts₀ where

variable [Facts]
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.KernelPayload.lean ====
/-
  What one grid point of the kernel computes, read at an index.

  The body loads a 1024 × 1024 block of looked-up values, the block of weights under it and the 1024 × 1 block of
  biases, multiplies the first two entry by entry, sums each row, scales the 1024 row sums by the angular step and
  adds the biases. At row `p` of the stored column that is
  `(Σ_k g[p, k] · w[p, k]) · step + bias[p]`. The same expression over whole arrays (`rowVal`, `column`) is what the
  result column will be shown to hold.
-/
import proofs.«128308_j61881888800891_1_alg».proof.Proof.Gen.KernelIdeal.Skeleton
import proofs.«128308_j61881888800891_1_alg».proof.Proof.LibKeepdims
import proofs.«128308_j61881888800891_1_alg».proof.Proof.LibRowReduce
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The stored column at row `p`: the row's weighted sum, scaled, plus the row's bias. -/
theorem pay_apply (x0 x1 : Vec Ideal S1024x1024 .f32) (x2 : Vec Ideal S1024x1 .f32) (p : Fin 1024) (u : Fin 1) :
    k0_pay1 (F := Ideal) x0 x1 x2 (ix2 p u)
      = (∑ k : Fin 1024, x0 (ix2 p k) * x1 (ix2 p k)) * Ideal.ofBits .f32 0x3B490FDB#32 + x2 (ix2 p u) := by
  unfold k0_pay1
  dsimp only
  rw [shapeCast_self x0, shapeCast_self x1, shapeCast_self x2]
  show (shapeCast S1024x1 _ _ (ix2 p u)) * _ + _ = _
  rw [Cert.Lib.shapeCast_a_a1_apply]
  refine congrArg₂ (· + ·) (congrArg₂ (· * ·) ?_ rfl) rfl
  exact Cert.Lib.multiReduction_add_row (mulf x0 x1) _ _ _ _ p

/-- Row `r` of the result column: the row's weighted sum, scaled by the angular step, plus the row's bias. -/
def rowVal (a0 a1 : S65536x1024.Idx → EReal) (a2 : S65536x1.Idx → EReal) (r : Fin 65536) (u : Fin 1) : EReal :=
  (∑ k : Fin 1024, a0 (ix2 r k) * a1 (ix2 r k)) * Ideal.ofBits .f32 0x3B490FDB#32 + a2 (ix2 r u)

/-- The result column as one function of the three arrays the region reads. -/
def column (a0 a1 : S65536x1024.Idx → EReal) (a2 : S65536x1.Idx → EReal) : S65536x1.Idx → EReal :=
  fun i => rowVal a0 a1 a2 (i 0) (i 1)

end Cert.KernelIdeal.Hand

end
-- ==== Proof.KernelBlocks.lean ====
/-
  From the kernel's blocks to its whole result column.

  The kernel's grid has 64 points. Point `t` works on rows `1024·t … 1024·t + 1023`: it reads that band of the
  looked-up values and of the weights (both 65536 × 1024) and of the biases (65536 × 1), and writes back the band of
  the 65536 × 1 result. What it writes at row `p` of the band is the row's weighted sum, scaled, plus the bias
  (`pay_apply`), so every band is a band of ONE function of the three arrays (`column`), and since the 64 bands tile
  the result, the result array ends holding that function.
-/
import proofs.«128308_j61881888800891_1_alg».proof.Proof.Gen.KernelIdeal.Frame
import proofs.«128308_j61881888800891_1_alg».proof.Proof.KernelPayload
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: every window's block row is the output's, its block column 0, and
    the block row stays below 64. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 63
    ∧ win0_3.index t (1 : Fin 2) = 0 :=
  (by decide +kernel : ∀ t : Fin grid0.N, _)

/-- Every band is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- Band `t` of ANY 65536 × 1024 array read through the first window's block: entry `(p, k)` is the array's entry at row `1024·t + p`, column `k`. -/
theorem read_blk0 (A : S65536x1024.Idx → EReal) (t : Fin cfg0.N) (p : Fin 1024) (k : Fin 1024) (i : S65536x1024.Idx)
    (h0 : (i 0).val = win0_3.index t (0 : Fin 2) * 1024 + p.val) (h1 : (i 1).val = k.val) :
    ((cfg0.win 0).blk t).view.read (Elt Ideal) A (ix2 p k) = A i := by
  obtain ⟨e0, e1, e2, e3, e4, e5, e6, e7⟩ := idx_facts t
  rw [View.read_apply]
  show A (((cfg0.win 0).blk t).view.emb (ix2 p k)) = A i
  refine congrArg A ?_
  funext a
  apply Fin.ext
  match a with
  | ⟨0, _⟩ => show win0_0.index t (0 : Fin 2) * 1024 + 1 * p.val = (i 0).val; rw [e0, h0, Nat.one_mul]
  | ⟨1, _⟩ => show win0_0.index t (1 : Fin 2) * 1024 + 1 * k.val = (i 1).val; rw [e1, h1, Nat.zero_mul, Nat.zero_add, Nat.one_mul]

/-- The same through the second window's block. -/
theorem read_blk1 (A : S65536x1024.Idx → EReal) (t : Fin cfg0.N) (p : Fin 1024) (k : Fin 1024) (i : S65536x1024.Idx)
    (h0 : (i 0).val = win0_3.index t (0 : Fin 2) * 1024 + p.val) (h1 : (i 1).val = k.val) :
    ((cfg0.win 1).blk t).view.read (Elt Ideal) A (ix2 p k) = A i := by
  obtain ⟨e0, e1, e2, e3, e4, e5, e6, e7⟩ := idx_facts t
  rw [View.read_apply]
  show A (((cfg0.win 1).blk t).view.emb (ix2 p k)) = A i
  refine congrArg A ?_
  funext a
  apply Fin.ext
  match a with
  | ⟨0, _⟩ => show win0_1.index t (0 : Fin 2) * 1024 + 1 * p.val = (i 0).val; rw [e2, h0, Nat.one_mul]
  | ⟨1, _⟩ => show win0_1.index t (1 : Fin 2) * 1024 + 1 * k.val = (i 1).val; rw [e3, h1, Nat.zero_mul, Nat.zero_add, Nat.one_mul]

/-- Band `t` of ANY 65536 × 1 column read through the third window's block. -/
theorem read_blk2 (A : S65536x1.Idx → EReal) (t : Fin cfg0.N) (p : Fin 1024) (k : Fin 1) (i : S65536x1.Idx)
    (h0 : (i 0).val = win0_3.index t (0 : Fin 2) * 1024 + p.val) (h1 : (i 1).val = k.val) :
    ((cfg0.win 2).blk t).view.read (Elt Ideal) A (ix2 p k) = A i := by
  obtain ⟨e0, e1, e2, e3, e4, e5, e6, e7⟩ := idx_facts t
  rw [View.read_apply]
  show A (((cfg0.win 2).blk t).view.emb (ix2 p k)) = A i
  refine congrArg A ?_
  funext a
  apply Fin.ext
  match a with
  | ⟨0, _⟩ => show win0_2.index t (0 : Fin 2) * 1024 + 1 * p.val = (i 0).val; rw [e4, h0, Nat.one_mul]
  | ⟨1, _⟩ => show win0_2.index t (1 : Fin 2) * 1 + 1 * k.val = (i 1).val; rw [e5, h1, Nat.zero_mul, Nat.zero_add, Nat.one_mul]

/-- BAND `t` OF THE RESULT: what the body stores at point `t`, from the bands of ANY three arrays read through the
    input windows' blocks, is band `t` of `column` of those arrays. -/
theorem band (A0 A1 : S65536x1024.Idx → EReal) (A2 : S65536x1.Idx → EReal) (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (column A0 A1 A2) := by
  unfold out0_3
  rw [View.canon_unit_zero hz]
  simp only [View.ld_unit_zero (S := S1024x1024) hz, View.ld_unit_zero (S := S1024x1) hz]
  obtain ⟨e0, e1, e2, e3, e4, e5, e6, e7⟩ := idx_facts t
  funext j
  obtain ⟨p, u, rfl⟩ : ∃ (p : Fin 1024) (u : Fin 1), j = ix2 p u := ⟨j 0, j 1, eq_ix2 j⟩
  show k0_pay1 (((cfg0.win 0).blk t).view.read (Elt Ideal) A0) (((cfg0.win 1).blk t).view.read (Elt Ideal) A1)
      (((cfg0.win 2).blk t).view.read (Elt Ideal) A2) (ix2 p u)
    = column A0 A1 A2 (((cfg0.win 3).blk t).view.emb (ix2 p u))
  refine (pay_apply _ _ _ p u).trans ?_
  unfold column rowVal
  have hr : ((((cfg0.win 3).blk t).view.emb (ix2 p u)) 0).val = win0_3.index t (0 : Fin 2) * 1024 + p.val := by
    show win0_3.index t (0 : Fin 2) * 1024 + 1 * p.val = _; rw [Nat.one_mul]
  have hu : ((((cfg0.win 3).blk t).view.emb (ix2 p u)) 1).val = u.val := by
    show win0_3.index t (1 : Fin 2) * 1 + 1 * u.val = _; rw [e7, Nat.zero_mul, Nat.zero_add, Nat.one_mul]
  refine congrArg₂ (· + ·) (congrArg₂ (· * ·) (Finset.sum_congr rfl fun k _ => ?_) rfl) ?_
  · exact congrArg₂ (· * ·) (read_blk0 A0 t p k _ hr rfl) (read_blk1 A1 t p k _ hr rfl)
  · exact read_blk2 A2 t p u _ hr hu

/-- WHAT POINT `t` WRITES BACK is band `t` of `column` of the three arrays as the region finds them. -/
theorem flushed_eq (c : Dev nD) (t : Fin cfg0.N) :
    (dats m 0 c).flushed 3 t
      = ((cfg0.win 3).blk t).view.read (Elt Ideal)
          (column (V m c (Pipeline.arrRef spec0 0)) (V m c (Pipeline.arrRef spec0 1)) (V m c (Pipeline.arrRef spec0 2))) := by
  show (cfg0.win 3).cut (grid0.coords t) ((dats m 0 c).after 3 t) = _
  rw [after0_3]
  exact band (V m c (Pipeline.arrRef spec0 0)) (V m c (Pipeline.arrRef spec0 1)) (V m c (Pipeline.arrRef spec0 2)) t

/-- An index of the result is in point `t`'s band iff each coordinate is in the band's range on its axis. -/
theorem mem_blk (t : Fin cfg0.N) (i : S65536x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v5).slice (win0_3.rect t)).set ↔ _
  rw [View.set_slice_whole, Rect.mem_set_unit]
  exact Iff.rfl

/-- The 64 bands cover the result: row `r` is in the band of point `r / 1024`. -/
theorem cover (i : S65536x1.Idx) : ∃ t : Fin cfg0.N, (cfg0.win 3).flush t = true ∧ i ∈ ((cfg0.win 3).blk t).view.set := by
  have hi0 : (i 0).val < 65536 := (i 0).isLt
  have hi1 : (i 1).val < 1 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [q0]
    clear q0 q1 ht
    omega
  | ⟨1, _⟩ =>
    show win0_3.index t (1 : Fin 2) * 1 ≤ (i 1).val ∧ (i 1).val < win0_3.index t (1 : Fin 2) * 1 + 1
    rw [q1]
    clear q0 q1 ht
    omega

/-- THE RESULT COLUMN after the region: `column` of the three arrays as the region finds them. -/
theorem final (c : Dev nD) :
    (dats m 0 c).arrAt 3 cfg0.N = column (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Hand

end
-- ==== Proof.Spec.lean ====
/-
  The backprojection as ONE function of the argument arrays, index by index, on the extended reals.

  A sinogram `x` of 376832 entries is read at 67108864 places given by an index array; each place is first brought
  into range (a negative index has the sinogram's length added) and then read, a place still outside the sinogram
  giving the fill value instead. How an index is brought into range (`normIdx`) and which places are inside
  (`inBounds`) are the same integer computations for every reader of this file, and nothing below looks inside them:
  the image is stated over ANY column `v5` of places and ANY mask `inb`.

  The 67108864 gathered values, each times its weight, are grouped by voxel: voxel `r` of 65536 sums the 1024
  consecutive products `r·1024 + c`, scales the sum by the angular step and adds its bias. The 65536 voxels are laid
  out as a 256 × 256 image, which is then flipped along both of its axes: pixel `(a, b)` shows voxel
  `(255 − a)·256 + (255 − b)`.
-/
import Idealize.ShloMosaic.PureOps.Ideal
import Idealize.ShloMosaic.Lib.ValueIdx

noncomputable section

open scoped BigOperators

namespace Cert.Spec

open Idealize.ShloMosaic Idealize.ShloMosaic.ValueIdx

abbrev S0 : Shape := ⟨0, ![]⟩
abbrev S1 : Shape := ⟨1, ![1]⟩
abbrev S1x1 : Shape := ⟨2, ![1, 1]⟩
abbrev SN : Shape := ⟨1, ![67108864]⟩
abbrev SNx1 : Shape := ⟨2, ![67108864, 1]⟩
abbrev SX : Shape := ⟨3, ![1, 1, 376832]⟩
abbrev SV : Shape := ⟨1, ![65536]⟩
abbrev SImg : Shape := ⟨4, ![1, 1, 256, 256]⟩

/-- The shape relations the integer side of the lookup takes: the scalar constants spread over the index array and
    over its column form, the column form itself, and the reduction of the column's one-entry rows. -/
structure TakeFacts : Prop where
  b0 : S0.BroadcastsInDim SN (![] : Fin 0 → Fin SN.rank)
  b1 : SN.BroadcastsInDim SNx1 (![0] : Fin 1 → Fin SNx1.rank)
  b2 : S0.BroadcastsInDim SNx1 (![] : Fin 0 → Fin SNx1.rank)
  b3 : S1.BroadcastsInDim S1x1 (![1] : Fin 1 → Fin S1x1.rank)
  b4 : S1x1.BroadcastsInDim SNx1 (![0, 1] : Fin 2 → Fin SNx1.rank)
  red : SNx1.ReducesTo [1] SN
  pos : 0 < S0.numel

/-- The places as a column, each brought into range: a negative index has the sinogram's length 376832 added. -/
def normIdx (h : TakeFacts) (idx : IVec SN 32) : IVec SNx1 32 :=
  broadcastInDim SNx1 ![0] h.b1
    (select (cmpi .slt idx (broadcastInDim SN ![] h.b0 (constantI S0 32 0#32)))
      (addi idx (broadcastInDim SN ![] h.b0 (constantI S0 32 376832#32))) idx)

/-- Which places are inside the sinogram: `0 ≤ place ≤ 376831`, the conjunction over the column's one-entry rows. -/
def inBounds (h : TakeFacts) (v5 : IVec SNx1 32) : IVec SN 1 :=
  Host.reduce IntOp.andi
    (andi (cmpi .sge v5 (broadcastInDim SNx1 ![] h.b2 (constantI S0 32 0#32)))
      (cmpi .sle v5 (broadcastInDim SNx1 ![0, 1] h.b4 (broadcastInDim S1x1 ![1] h.b3 (constantI S1 32 376831#32)))))
    (constantI S0 1 1#1) h.red h.pos

/-- The sinogram read at place `n`: where the mask holds, the entry the column names (read as a signed integer and
    clamped into the sinogram, as a gather clamps its start), elsewhere the fill value. -/
def pick (x : FVec Ideal SX .f32) (v5 : IVec SNx1 32) (inb : IVec SN 1) (n : Fin 67108864) : EReal :=
  Scalar.select (inb (ix1 n))
    (x (ix3 (0 : Fin 1) (0 : Fin 1) (⟨min (v5 (ix2 n (0 : Fin 1))).toInt.toNat (376832 - 1), by omega⟩ : Fin 376832)))
    (Ideal.ofBits .f32 0x7FC00000#32)

/-- Place `c` of voxel `r`. -/
abbrev place (r : Fin 65536) (c : Fin 1024) : Fin 67108864 := ⟨r.val * 1024 + c.val, by omega⟩

/-- Voxel `r`: the weighted sum of its 1024 places, scaled by the angular step, plus its bias. -/
def voxel (x : FVec Ideal SX .f32) (w : FVec Ideal SN .f32) (b : FVec Ideal SV .f32) (v5 : IVec SNx1 32) (inb : IVec SN 1)
    (r : Fin 65536) : EReal :=
  (∑ c : Fin 1024, pick x v5 inb (place r c) * w (ix1 (place r c))) * Ideal.ofBits .f32 0x3B490FDB#32 + b (ix1 r)

/-- The voxel pixel `(a, b)` of the flipped image shows. -/
abbrev flipped (a b : Fin 256) : Fin 65536 := ⟨(255 - a.val) * 256 + (255 - b.val), by omega⟩

/-- The flipped 256 × 256 image of the voxels. -/
def image (x : FVec Ideal SX .f32) (w : FVec Ideal SN .f32) (b : FVec Ideal SV .f32) (v5 : IVec SNx1 32) (inb : IVec SN 1) :
    FVec Ideal SImg .f32 :=
  fun i => voxel x w b v5 inb (flipped (i 2) (i 3))

end Cert.Spec

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.KernelArrays.lean ====
/-
  The three arrays the kernel's region reads, as terms of the program's arguments.

  Before the region the program reshapes the sinogram to a vector, looks it up at the index array (the index brought
  into range, the test that it is inside, the gather of single entries, the fill value where the test fails), and
  lays the 67108864 looked-up values out as 65536 rows of 1024; it lays the weights out the same way and the biases as
  a 65536 × 1 column. Read at the buffers the region's windows stage, the fold of those host operations is exactly
  these terms.
-/
import proofs.«128308_j61881888800891_1_alg».proof.Proof.Gen.KernelIdeal.Frame
import proofs.«128308_j61881888800891_1_alg».proof.Proof.Spec
import proofs.«128308_j61881888800891_1_alg».proof.Proof.KernelPayload
import proofs.«128308_j61881888800891_1_alg».proof.Proof.LibTRefCast
import Idealize.ShloMosaic.Lib.StableHlo.Run

set_option Elab.async false

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ)

/-- The shape relations of the lookup's integer side, as this program states them. -/
theorem takeFacts : Cert.Spec.TakeFacts :=
  ⟨bcast_S_S67108864, bcast_S67108864_S67108864x1_0, bcast_S_S67108864x1, bcast_S1_S1x1_1, bcast_S1x1_S67108864x1_0_1,
    reducesTo_S67108864x1_S67108864_d1, h_S_⟩

/-- The lookup on the sinogram as a vector: read at the places the column names, the fill value where the mask fails. -/
def kerTake (x1 : FVec Ideal S376832 .f32) (v5 : IVec S67108864x1 32) (inb : IVec S67108864 1) : FVec Ideal S67108864 .f32 :=
  select inb (Host.gather gather_S376832_S67108864x1_S67108864_n_0_n_n_0_1_1 x1 v5)
    (broadcastInDim S67108864 ![] bcast_S_S67108864 (constant S_ .f32 0x7FC00000#32))

/-- The looked-up values in 65536 rows of 1024, as a term of the sinogram and the index array. -/
def looked (x : FVec Ideal S1x1x376832 .f32) (idx : IVec S67108864 32) : FVec Ideal S65536x1024 .f32 :=
  shapeCast S65536x1024
    (kerTake (shapeCast S376832 x shapeCasts_S1x1x376832_S376832) (Cert.Spec.normIdx takeFacts idx)
      (Cert.Spec.inBounds takeFacts (Cert.Spec.normIdx takeFacts idx)))
    shapeCasts_S67108864_S65536x1024

set_option maxHeartbeats 400000 in
/-- The first window's array is the looked-up values. -/
theorem V_looked (c : Dev nD) :
    (V m c (Pipeline.arrRef spec0 0) : S65536x1024.Idx → EReal)
      = looked (m ((c.tc : Thread nD τ).loc main_arg0)) (m ((c.tc : Thread nD τ).loc main_arg3)) := by
  show V m c main_v2 = _
  dsimp only [Gen.V, Gen.V0]
  simp only [Gen.hostOps0, Gen.hostOps0_1, Gen.hostOps0_2, List.flatten_cons, List.flatten_nil, List.append_nil,
    List.cons_append, List.nil_append]
  unfold looked kerTake Cert.Spec.normIdx Cert.Spec.inBounds
  after_results_simp
  simp only [Cert.Lib.ofBuf_toBuf]
  simp only [TRef.ofBuf]
  simp only [cast_eq]
  rfl

set_option maxHeartbeats 400000 in
/-- The second window's array is the weights in 65536 rows of 1024. -/
theorem V_weights (c : Dev nD) :
    (V m c (Pipeline.arrRef spec0 1) : S65536x1024.Idx → EReal)
      = shapeCast S65536x1024 (m ((c.tc : Thread nD τ).loc main_arg1)) shapeCasts_S67108864_S65536x1024 := by
  show V m c main_v3 = _
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 400000 in
/-- The third window's array is the biases as a column. -/
theorem V_bias (c : Dev nD) :
    (V m c (Pipeline.arrRef spec0 2) : S65536x1.Idx → EReal)
      = shapeCast S65536x1 (m ((c.tc : Thread nD τ).loc main_arg2)) shapeCasts_S65536_S65536x1 := by
  show V m c main_v4 = _
  dsimp only [Gen.V, Gen.V0]
  simp only [Gen.hostOps0, Gen.hostOps0_1, Gen.hostOps0_2, List.flatten_cons, List.flatten_nil, List.append_nil,
    List.cons_append, List.nil_append]
  after_results_simp
  rfl

/-- The program's result as one term of its arguments: the result column of the three arrays, laid out 256 × 256,
    flipped along both axes, with two unit axes in front. -/
def kerOut (x : FVec Ideal S1x1x376832 .f32) (w : FVec Ideal S67108864 .f32) (b : FVec Ideal S65536 .f32)
    (idx : IVec S67108864 32) : FVec Ideal S1x1x256x256 .f32 :=
  shapeCast S1x1x256x256
    (Host.reverse [0, 1]
      (shapeCast S256x256
        (column (looked x idx) (shapeCast S65536x1024 w shapeCasts_S67108864_S65536x1024)
          (shapeCast S65536x1 b shapeCasts_S65536_S65536x1))
        shapeCasts_S65536x1_S256x256))
    shapeCasts_S256x256_S1x1x256x256

end Cert.KernelIdeal.Hand

end
-- ==== Proof.KernelRun.lean ====
/-
  The kernel program's run, read back.

  After the region the program lays the 65536 × 1 result column out as a 256 × 256 image, flips it along both axes and
  adds two unit axes in front. The region leaves the result column at `column` of the three arrays it read
  (the bands of the 64 grid points tile it), those arrays are the looked-up values, the weights and the biases as terms
  of the arguments, so every weakly fair execution terminates with the result at `kerOut` of the argument arrays, and
  with the arguments as they were.
-/
import proofs.«128308_j61881888800891_1_alg».proof.Proof.KernelBlocks
import proofs.«128308_j61881888800891_1_alg».proof.Proof.KernelArrays

set_option Elab.async false

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The result column after the region, as a term of the arguments. -/
theorem column_eq (c : Dev nD) :
    (dats m 0 c).arrAt 3 cfg0.N
      = column (looked (m ((c.tc : Thread nD τ).loc main_arg0)) (m ((c.tc : Thread nD τ).loc main_arg3)))
          (shapeCast S65536x1024 (m ((c.tc : Thread nD τ).loc main_arg1)) shapeCasts_S67108864_S65536x1024)
          (shapeCast S65536x1 (m ((c.tc : Thread nD τ).loc main_arg2)) shapeCasts_S65536_S65536x1) := by
  rw [final m c, V_looked, V_weights, V_bias]

/-- The lines after the region find the result column in the region's output array. -/
theorem found (c : Dev nD) :
    Pipeline.withArrays (cfgs 0).spec c (V0 m c) (fun w => (dats m 0 c).arrAt w (cfgs 0).N) (Proc.devRef .tc main_v5)
      = column (looked (m ((c.tc : Thread nD τ).loc main_arg0)) (m ((c.tc : Thread nD τ).loc main_arg3)))
          (shapeCast S65536x1024 (m ((c.tc : Thread nD τ).loc main_arg1)) shapeCasts_S67108864_S65536x1024)
          (shapeCast S65536x1 (m ((c.tc : Thread nD τ).loc main_arg2)) shapeCasts_S65536_S65536x1) :=
  (Pipeline.withArrays_arr (cfgs 0).spec launch0.win.arr_inj c (V0 m c) (fun w => (dats m 0 c).arrAt w (cfgs 0).N) 3).trans
    (column_eq m c)

set_option maxHeartbeats 400000 in
/-- What the result buffer holds after the lines that follow the region. -/
theorem tail_eq (c : Dev nD) :
    Pipeline.afterTail₀ cfgs (dats m) 0 (V0 m) [hostOps1, hostOps1_1, hostOps1_2] c main_v8
      = kerOut (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  simp only [hostOps1, hostOps1_1, hostOps1_2, List.flatten_cons, List.flatten_nil, List.append_nil, List.cons_append,
    List.nil_append]
  after_results_simp
  simp only [TRef.ofBuf, TRef.toBuf]
  simp only [cast_eq]
  rw [found m c]
  rfl

/-- On every device, from any memory with zero counters: every weakly fair execution of the kernel program terminates
    with the result at `kerOut` of the arguments' launch contents and the arguments unchanged. The region's frame run
    states every buffer that is no array of the region at what the lines after the region leave in it: the result buffer
    by `tail_eq`, an argument by the frame's own reading. -/
theorem run : θ_run defs (onTc (τ := τ) (main (F := Ideal))) ⟨m, fun _ => 0, ρ⟩ fun r => ∀ c : Dev nD,
      r.2.mem ((c.tc : Thread nD τ).loc main_v8)
        = kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v8 (Pipeline.mem_restRefs_of main_v8 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Hand

end
-- ==== Proof.LibTakeGather.lean ====
/-
  The gather of SINGLE ENTRIES of a vector, read at an index.

  For a vector `x : [N]` and an integer column `idx : [R, 1]`, the gather with no offset axis, collapsed slice axes
  `[0]`, start index map `[0]`, index vector axis `1` and slice sizes `[1]` is the vector `[R]` whose element `e` is
  `x` at entry `idx[e, 0]` — read as a signed integer and clamped into `[0, N − 1]`, as a gather clamps every start
  index so that the slice fits. The statement is general in the extents `N`, `R`, in the index width `w` and in the
  element type, and is meant to be reused: `takeGather_apply` for the dimension numbers written out
  (`takeGatherDims`), `takeGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries of a vector: operand `[N]`, start indices `[R, 1]` (one entry
    number per result entry, on the index vector's axis `1`), result `[R]`; the operand's one axis is collapsed and is
    the one the start index addresses (slice sizes `[1]`), and there is no offset axis. Their conditions `wf` are
    decidable on literal shapes. -/
abbrev takeGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]`, read signed and clamped into `[0, N − 1]`. On the
    operand's one axis (collapsed, in the start index map) the operand index is the clamped start, with no batching and
    no offset part. -/
theorem takeGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (takeGatherDims N R wf).start (ix1 e) idx 0 + (takeGatherDims N R wf).batchCoord (ix1 e) 0
      + (takeGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N R wf).startIndexMap from List.mem_singleton.mpr rfl)]
  have hsi : (takeGatherDims N R wf).siIdx (ix1 e) ⟨List.idxOf (0 : Fin 1) (takeGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for ANY record of gather dimension numbers over those three shapes whose fields are the entry gather's (for
    a record given by its literal fields the seven equations hold by `rfl`). -/
theorem takeGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact takeGather_apply hN wf x idx e

end Cert.Lib
-- ==== Proof.LibFlip.lean ====
/-
  A flip read at an index.

  Reversing an array along some of its axes reads, at an index, the operand at the index whose coordinates on those
  axes are mirrored (`k ↦ size − 1 − k`) and whose other coordinates are kept:

  * an `[a, b]` matrix flipped along both axes reads, at `(p, q)`, the operand at `(a − 1 − p, b − 1 − q)`;
  * an `[m, n, a, b]` array flipped along its last two axes reads, at `(u, v, p, q)`, the operand at
    `(u, v, a − 1 − p, b − 1 − q)`.

  It is what `jnp.flip(x, axis=(0, 1))` of a matrix and `jnp.flip(x, axis=(2, 3))` of a batch of images lower to.
-/
import Idealize.ShloMosaic.PureOps.Ideal
import Idealize.ShloMosaic.Lib.ValueIdx

namespace Cert.Lib

open Idealize.ShloMosaic Idealize.ShloMosaic.ValueIdx

variable {α : Type}

/-- A matrix flipped along both axes, at `(p, q)`: the operand at the mirrored row and column. -/
theorem reverse_both_apply {a b : ℕ} (x : (⟨2, ![a, b]⟩ : Shape).Idx → α) (p : Fin a) (q : Fin b) :
    Host.reverse (s := ⟨2, ![a, b]⟩) [0, 1] x (ix2 p q) = x (ix2 p.rev q.rev) := by
  unfold Host.reverse
  congr 1
  funext c
  match c with
  | ⟨0, _⟩ => rfl
  | ⟨1, _⟩ => rfl

/-- A rank-4 array flipped along its last two axes, at `(u, v, p, q)`: the operand at `(u, v)` and the mirrored row
    and column. -/
theorem reverse_last2_apply {m n a b : ℕ} (x : (⟨4, ![m, n, a, b]⟩ : Shape).Idx → α) (u : Fin m) (v : Fin n) (p : Fin a)
    (q : Fin b) :
    Host.reverse (s := ⟨4, ![m, n, a, b]⟩) [2, 3] x (ix4 u v p q) = x (ix4 u v p.rev q.rev) := by
  unfold Host.reverse
  congr 1
  funext c
  match c with
  | ⟨0, _⟩ => rfl
  | ⟨1, _⟩ => rfl
  | ⟨2, _⟩ => rfl
  | ⟨3, _⟩ => rfl

end Cert.Lib
-- ==== Proof.KernelValue.lean ====
/-
  The kernel program's result, index by index, is the specification's flipped image.

  Pixel `(a, b)` of the result reads the 256 × 256 layout at `(255 − a, 255 − b)` (the flip), which is row
  `r = (255 − a)·256 + (255 − b)` of the result column; that row is the sum over `k : Fin 1024` of the looked-up value
  times the weight at `(r, k)` — place `r·1024 + k` of the 67108864, by the 65536 × 1024 layouts —, scaled, plus bias
  `r`. At a place the lookup is `pick`: the gather of single entries of the sinogram as a vector reads it at the
  clamped entry the column names, and entry `e` of the vector is entry `(0, 0, e)` of the sinogram.
-/
import proofs.«128308_j61881888800891_1_alg».proof.Proof.KernelArrays
import proofs.«128308_j61881888800891_1_alg».proof.Proof.LibTakeGather
import proofs.«128308_j61881888800891_1_alg».proof.Proof.LibFlip
import Idealize.ShloMosaic.Lib.IdealHost
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The lookup at place `n`. -/
theorem kerTake_apply (x : FVec Ideal S1x1x376832 .f32) (v5 : IVec S67108864x1 32) (inb : IVec S67108864 1)
    (n : Fin 67108864) :
    kerTake (shapeCast S376832 x shapeCasts_S1x1x376832_S376832) v5 inb (ix1 n) = Cert.Spec.pick x v5 inb n := by
  unfold kerTake Cert.Spec.pick
  rw [select_apply]
  have h2 : Host.gather gather_S376832_S67108864x1_S67108864_n_0_n_n_0_1_1
        (shapeCast S376832 x shapeCasts_S1x1x376832_S376832) v5 (ix1 n)
      = shapeCast S376832 x shapeCasts_S1x1x376832_S376832
          (ix1 (⟨min (v5 (ix2 n (0 : Fin 1))).toInt.toNat (376832 - 1), by omega⟩ : Fin 376832)) :=
    Cert.Lib.takeGather_apply' (by omega) _ rfl rfl rfl rfl rfl rfl rfl _ v5 n
  have h3 : broadcastInDim S67108864 ![] bcast_S_S67108864 (constant (F := Ideal) S_ .f32 0x7FC00000#32) (ix1 n)
      = Ideal.ofBits .f32 0x7FC00000#32 :=
    broadcastInDim_scalar_apply _ _ _
  have h4 : ∀ e : Fin 376832, shapeCast S376832 x shapeCasts_S1x1x376832_S376832 (ix1 e)
      = x (ix3 (0 : Fin 1) (0 : Fin 1) e) := fun e =>
    shapeCast_apply x _ (ix1 e) (ix3 (0 : Fin 1) (0 : Fin 1) e) (by
      rw [Shape.rowMajor_val_three, Shape.rowMajor_val_one]
      show (0 * 1 + 0) * 376832 + e.val = e.val
      omega)
  rw [h2, h3, h4]

/-- The looked-up values at row `r`, column `k`: the lookup at place `r·1024 + k`. -/
theorem looked_apply (x : FVec Ideal S1x1x376832 .f32) (idx : IVec S67108864 32) (r : Fin 65536) (k : Fin 1024) :
    looked x idx (ix2 r k)
      = Cert.Spec.pick x (Cert.Spec.normIdx takeFacts idx)
          (Cert.Spec.inBounds takeFacts (Cert.Spec.normIdx takeFacts idx)) (Cert.Spec.place r k) := by
  unfold looked
  refine (shapeCast_apply _ _ (ix2 r k) (ix1 (Cert.Spec.place r k)) (by
    rw [Shape.rowMajor_val_one, Shape.rowMajor_val_two]
    show r.val * 1024 + k.val = r.val * 1024 + k.val
    rfl)).trans ?_
  exact kerTake_apply x _ _ _

/-- THE KERNEL PROGRAM IS THE SPECIFICATION: its result term is the flipped image of the voxels. -/
theorem kerOut_eq (x : FVec Ideal S1x1x376832 .f32) (w : FVec Ideal S67108864 .f32) (b : FVec Ideal S65536 .f32)
    (idx : IVec S67108864 32) :
    kerOut x w b idx
      = Cert.Spec.image x w b (Cert.Spec.normIdx takeFacts idx)
          (Cert.Spec.inBounds takeFacts (Cert.Spec.normIdx takeFacts idx)) := by
  funext i
  obtain ⟨u, v, p, q, rfl⟩ : ∃ (u v : Fin 1) (p q : Fin 256), i = ix4 u v p q := ⟨i 0, i 1, i 2, i 3, eq_ix4 i⟩
  have hu : u.val = 0 := by omega
  have hv : v.val = 0 := by omega
  have hp : p.rev.val = 255 - p.val := by rw [Fin.val_rev]; omega
  have hq : q.rev.val = 255 - q.val := by rw [Fin.val_rev]; omega
  unfold kerOut
  refine (shapeCast_apply _ _ (ix4 u v p q) (ix2 p q) (by
    rw [Shape.rowMajor_val_two, Shape.rowMajor_val_four]
    show p.val * 256 + q.val = ((u.val * 1 + v.val) * 256 + p.val) * 256 + q.val
    rw [hu, hv]; omega)).trans ?_
  rw [Cert.Lib.reverse_both_apply]
  refine (shapeCast_apply _ _ (ix2 p.rev q.rev) (ix2 (Cert.Spec.flipped p q) (0 : Fin 1)) (by
    rw [Shape.rowMajor_val_two, Shape.rowMajor_val_two]
    show ((255 - p.val) * 256 + (255 - q.val)) * 1 + 0 = p.rev.val * 256 + q.rev.val
    rw [hp, hq]; omega)).trans ?_
  show rowVal _ _ _ (Cert.Spec.flipped p q) (0 : Fin 1) = _
  unfold rowVal Cert.Spec.image Cert.Spec.voxel
  refine congrArg₂ (· + ·) (congrArg₂ (· * ·) (Finset.sum_congr rfl fun k _ => ?_) rfl) ?_
  · refine congrArg₂ (· * ·) (looked_apply x idx _ k) ?_
    exact shapeCast_apply w _ (ix2 (Cert.Spec.flipped p q) k) (ix1 (Cert.Spec.place (Cert.Spec.flipped p q) k)) (by
      rw [Shape.rowMajor_val_one, Shape.rowMajor_val_two]
      rfl)
  · exact shapeCast_apply b _ (ix2 (Cert.Spec.flipped p q) (0 : Fin 1)) (ix1 (Cert.Spec.flipped p q)) (by
      rw [Shape.rowMajor_val_one, Shape.rowMajor_val_two]
      show (255 - p.val) * 256 + (255 - q.val) = ((255 - p.val) * 256 + (255 - q.val)) * 1 + 0
      omega)

end Cert.KernelIdeal.Hand

end
-- ==== Proof.RefRun.lean ====
/-
  The reference program's run, read back.

  The reference is a straight line of host operations once its three helper functions are unfolded where they are
  called: the lookup of the sinogram at the index array (twenty-three operations: the index brought into range, the
  test that it is inside, the gather, the fill value, the choice between the two), the product with the weights, the
  sum of each voxel's 1024 places, the scaling, the bias, the 256 × 256 layout and the flip along both image axes.
  Every weakly fair execution of it terminates with every buffer at the fold of those operations over the launch
  contents.
-/
import proofs.«128308_j61881888800891_1_alg».proof.Proof.Gen.ReferenceIdeal
import proofs.«128308_j61881888800891_1_alg».proof.Proof.Spec
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The shape relations of the lookup's integer side, as this program states them. -/
theorem takeFacts : Cert.Spec.TakeFacts :=
  ⟨bcast_S_S67108864, bcast_S67108864_S67108864x1_0, bcast_S_S67108864x1, bcast_S1_S1x1_1, bcast_S1x1_S67108864x1_0_1,
    reducesTo_S67108864x1_S67108864_d1, h_S_⟩

/-- @main's thirty-five operations in order, the three calls unfolded. -/
abbrev ops : List (HloOp τ sig (Elt F)) :=
  [ TRef.nullary main_call0.c (constantI S_ 32 0#32),
    TRef.unary main_call0.c main_call0.v0 (broadcastInDim S67108864 ![] bcast_S_S67108864),
    TRef.binary (.of main_arg3) main_call0.v0 main_call0.v1 (cmpi .slt),
    TRef.nullary main_call0.c_0 (constantI S_ 32 376832#32),
    TRef.unary main_call0.c_0 main_call0.v2 (broadcastInDim S67108864 ![] bcast_S_S67108864),
    TRef.binary (.of main_arg3) main_call0.v2 main_call0.v3 addi,
    TRef.ternary main_call0.v1 main_call0.v3 (.of main_arg3) main_call0.call0.v0 select,
    TRef.unary main_call0.call0.v0 main_call0.v5 (broadcastInDim S67108864x1 ![0] bcast_S67108864_S67108864x1_0),
    TRef.nullary main_call0.c_1 (constantI S1 32 376831#32),
    TRef.nullary main_call0.c_2 (constantI S_ 32 0#32),
    TRef.unary main_call0.c_2 main_call0.v6 (broadcastInDim S67108864x1 ![] bcast_S_S67108864x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S67108864x1 ![0, 1] bcast_S1x1_S67108864x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S67108864x1_S67108864_d1 h_S_),
    TRef.binary (.of main_arg0) main_call0.v5 main_call0.v13 (fun x i => Host.gather gather_S1x1x376832_S67108864x1_S1x1x67108864_01_2_n_n_2_1_111 x i),
    TRef.unary main_call0.v12 main_call0.v14 (broadcastInDim S1x1x67108864 ![2] bcast_S67108864_S1x1x67108864_2),
    TRef.nullary main_call0.cst (constant S_ .f32 0x7FC00000#32),
    TRef.unary main_call0.cst main_call0.v15 (broadcastInDim S1x1x67108864 ![] bcast_S_S1x1x67108864),
    TRef.ternary main_call0.v14 main_call0.v13 main_call0.v15 main_call0.v16 select,
    unary main_arg1 main_v1 (broadcastInDim S1x1x67108864 ![2] bcast_S67108864_S1x1x67108864_2 : (⟨S67108864, .f32⟩ : BufTy).Contents (Elt F) → (⟨S1x1x67108864, .f32⟩ : BufTy).Contents (Elt F)),
    binary main_v0 main_v1 main_v2 (mulf : (⟨S1x1x67108864, .f32⟩ : BufTy).Contents (Elt F) → (⟨S1x1x67108864, .f32⟩ : BufTy).Contents (Elt F) → (⟨S1x1x67108864, .f32⟩ : BufTy).Contents (Elt F)),
    reshape main_v2 main_v3 rfl shapeCasts_S1x1x67108864_S1x1x65536x1024,
    nullary main_cst (constant S_ .f32 0x00000000#32),
    binary main_v3 main_cst main_v4 ((fun x v => Host.reduceAdd x v reducesTo_S1x1x65536x1024_S1x1x65536_d3 h_S_) : (⟨S1x1x65536x1024, .f32⟩ : BufTy).Contents (Elt F) → (⟨S_, .f32⟩ : BufTy).Contents (Elt F) → (⟨S1x1x65536, .f32⟩ : BufTy).Contents (Elt F)),
    nullary main_cst_0 (constant S_ .f32 0x3B490FDB#32),
    unary main_cst_0 main_v5 (broadcastInDim S1x1x65536 ![] bcast_S_S1x1x65536 : (⟨S_, .f32⟩ : BufTy).Contents (Elt F) → (⟨S1x1x65536, .f32⟩ : BufTy).Contents (Elt F)),
    binary main_v4 main_v5 main_v6 (mulf : (⟨S1x1x65536, .f32⟩ : BufTy).Contents (Elt F) → (⟨S1x1x65536, .f32⟩ : BufTy).Contents (Elt F) → (⟨S1x1x65536, .f32⟩ : BufTy).Contents (Elt F)),
    unary main_arg2 main_v7 (broadcastInDim S1x1x65536 ![2] bcast_S65536_S1x1x65536_2 : (⟨S65536, .f32⟩ : BufTy).Contents (Elt F) → (⟨S1x1x65536, .f32⟩ : BufTy).Contents (Elt F)),
    binary main_v6 main_v7 main_v8 (addf : (⟨S1x1x65536, .f32⟩ : BufTy).Contents (Elt F) → (⟨S1x1x65536, .f32⟩ : BufTy).Contents (Elt F) → (⟨S1x1x65536, .f32⟩ : BufTy).Contents (Elt F)),
    reshape main_v8 main_v9 rfl shapeCasts_S1x1x65536_S1x1x256x256,
    TRef.unary (.of main_v9) main_call1.v0 (Host.reverse [2, 3]) ]

set_option maxRecDepth 4096 in
/-- @main is that straight line: the functions' definitions unfolded at their calls, and the sequencing reassociated. -/
theorem main_eq (c : Dev nD) : main (F := F) c = seq ops := by
  simp only [main, fn_take.body, fn_where.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., reshape_bufs_sub .., nullary_bufs_sub .., binary_bufs_sub .., nullary_bufs_sub ..,
    unary_bufs_sub .., binary_bufs_sub .., unary_bufs_sub .., binary_bufs_sub .., reshape_bufs_sub .., unary_bufs_sub ..⟩

/-- On every device, from any memory with zero counters: every weakly fair execution of @main terminates, and every buffer
    ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.RefOut.lean ====
/-
  The reference's result as one term of its argument arrays.

  The fold of the reference's thirty-five operations, read at the result buffer, is the lookup (`refTake`) followed by
  the weighting, the sum over each voxel's places, the scaling, the bias, the image layout and the flip (`refTail`);
  read at an argument buffer it is that argument. The lookup is stated over the column of places and the mask, which are
  the shared integer computations of the specification (`Cert.Spec.normIdx`, `Cert.Spec.inBounds`).
-/
import proofs.«128308_j61881888800891_1_alg».proof.Proof.RefRun
import proofs.«128308_j61881888800891_1_alg».proof.Proof.LibTRefCast

set_option Elab.async false

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The lookup: the sinogram read at the places the column names, the fill value where the mask fails. -/
def refTake (x : FVec F S1x1x376832 .f32) (v5 : IVec S67108864x1 32) (inb : IVec S67108864 1) : FVec F S1x1x67108864 .f32 :=
  select (broadcastInDim S1x1x67108864 ![2] bcast_S67108864_S1x1x67108864_2 inb)
    (Host.gather gather_S1x1x376832_S67108864x1_S1x1x67108864_01_2_n_n_2_1_111 x v5)
    (broadcastInDim S1x1x67108864 ![] bcast_S_S1x1x67108864 (constant S_ .f32 0x7FC00000#32))

/-- From the looked-up values to the flipped image: times the weights, summed by voxel, scaled, plus the bias, laid out
    256 × 256 and flipped along both image axes. -/
def refTail (g : FVec F S1x1x67108864 .f32) (w : FVec F S67108864 .f32) (b : FVec F S65536 .f32) : FVec F S1x1x256x256 .f32 :=
  Host.reverse [2, 3]
    (shapeCast S1x1x256x256
      (addf
        (mulf
          (Host.reduceAdd
            (shapeCast S1x1x65536x1024 (mulf g (broadcastInDim S1x1x67108864 ![2] bcast_S67108864_S1x1x67108864_2 w))
              shapeCasts_S1x1x67108864_S1x1x65536x1024)
            (constant S_ .f32 0x00000000#32) reducesTo_S1x1x65536x1024_S1x1x65536_d3 h_S_)
          (broadcastInDim S1x1x65536 ![] bcast_S_S1x1x65536 (constant S_ .f32 0x3B490FDB#32)))
        (broadcastInDim S1x1x65536 ![2] bcast_S65536_S1x1x65536_2 b))
      shapeCasts_S1x1x65536_S1x1x256x256)

/-- The reference's result as one term of its argument arrays. -/
def refOut (x : FVec F S1x1x376832 .f32) (w : FVec F S67108864 .f32) (b : FVec F S65536 .f32) (idx : IVec S67108864 32) :
    FVec F S1x1x256x256 .f32 :=
  refTail (refTake x (Cert.Spec.normIdx takeFacts idx) (Cert.Spec.inBounds takeFacts (Cert.Spec.normIdx takeFacts idx))) w b

set_option maxHeartbeats 400000 in
/-- The fold of the operations at the result buffer is `refOut` of the contents at the argument buffers. -/
theorem out_eq (V : Valuation τ sig (Elt F)) :
    after ops V (main_v10 : DevRef τ sig)
      = refOut (V (main_arg0 : DevRef τ sig)) (V (main_arg1 : DevRef τ sig)) (V (main_arg2 : DevRef τ sig))
          (V (main_arg3 : DevRef τ sig)) := by
  unfold refOut refTail refTake Cert.Spec.normIdx Cert.Spec.inBounds
  after_results_simp
  simp only [Cert.Lib.ofBuf_toBuf]
  simp only [TRef.ofBuf]
  simp only [cast_eq]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters: every weakly fair execution of @main terminates with the result
    at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (out_eq _), (h c main_arg0).trans (arg0_eq _),
      (h c main_arg1).trans (arg1_eq _), (h c main_arg2).trans (arg2_eq _), (h c main_arg3).trans (arg3_eq _)⟩)
    (run_all m ρ)

end Cert.ReferenceIdeal.Straight

end
-- ==== Proof.LibLastAxisGather.lean ====
/-
  The gather of single entries along the LAST axis of a rank-3 array, read at an index.

  For an array `x : [A, B, N]` and an integer column `idx : [R, 1]`, the gather with offset axes `[0, 1]`, collapsed
  slice axes `[2]`, start index map `[2]`, index vector axis `1` and slice sizes `[A, B, 1]` is the array `[A, B, R]`
  whose element `(p, q, e)` is `x` at `(p, q, idx[e, 0])` — the entry number read as a signed integer and clamped into
  `[0, N − 1]`, as a gather clamps every start index so that the slice fits; the two leading axes are carried whole (the
  start is `0` on them and the offset is the result's own coordinate). It is what `jnp.take(x, idx, axis=2)` lowers
  to. General in the extents, in the index width and in the element type: `lastAxisGather_apply` for the dimension numbers
  written out (`lastAxisGatherDims`), `lastAxisGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries along the last axis of a rank-3 array: operand `[A, B, N]`,
    start indices `[R, 1]`, result `[A, B, R]`; the last axis is collapsed and is the one the start index addresses, the
    two leading axes are offset axes taken whole. -/
abbrev lastAxisGatherDims (A B N R : Nat)
    (wf : GatherDims.WF ⟨3, ![A, B, N]⟩ ⟨2, ![R, 1]⟩ ⟨3, ![A, B, R]⟩ [0, 1] [2] [] [2] [] 1 ![A, B, 1]) :
    GatherDims ⟨3, ![A, B, N]⟩ ⟨2, ![R, 1]⟩ ⟨3, ![A, B, R]⟩ where
  offsetDims := [0, 1]
  collapsedSliceDims := [2]
  operandBatchingDims := []
  startIndicesBatchingDims := []
  startIndexMap := [2]
  indexVectorDim := 1
  sliceSizes := ![A, B, 1]
  wf := wf

/-- THE GATHER READ AT `(p, q, e)`: the operand at `(p, q, idx[e, 0])`, the entry number read signed and clamped into
    `[0, N − 1]`. -/
theorem lastAxisGather_apply {α : Type} {A B N R w : Nat} (hN : 0 < N)
    (wf : GatherDims.WF ⟨3, ![A, B, N]⟩ ⟨2, ![R, 1]⟩ ⟨3, ![A, B, R]⟩ [0, 1] [2] [] [2] [] 1 ![A, B, 1])
    (x : (⟨3, ![A, B, N]⟩ : Shape).Idx → α) (idx : IVec ⟨2, ![R, 1]⟩ w) (p : Fin A) (q : Fin B) (e : Fin R) :
    Host.gather (lastAxisGatherDims A B N R wf) x idx (ix3 p q e)
      = x (ix3 p q (⟨min (idx (ix2 e (0 : Fin 1))).toInt.toNat (N - 1), by omega⟩ : Fin N)) := by
  unfold Host.gather
  congr 1
  have e0 : ((lastAxisGatherDims A B N R wf).operandIdx (ix3 p q e) idx (0 : Fin 3)).val = p.val := by
    show (lastAxisGatherDims A B N R wf).start (ix3 p q e) idx (0 : Fin 3)
        + (lastAxisGatherDims A B N R wf).batchCoord (ix3 p q e) (0 : Fin 3)
        + (lastAxisGatherDims A B N R wf).offCoord (ix3 p q e) (0 : Fin 3) = _
    rw [GatherDims.batchCoord_eq_zero _ _ _ List.not_mem_nil, Nat.add_zero]
    unfold GatherDims.start
    rw [dif_neg (show (0 : Fin 3) ∉ [(2 : Fin 3)] from by decide), Nat.zero_add]
    rfl
  have e1 : ((lastAxisGatherDims A B N R wf).operandIdx (ix3 p q e) idx (1 : Fin 3)).val = q.val := by
    show (lastAxisGatherDims A B N R wf).start (ix3 p q e) idx (1 : Fin 3)
        + (lastAxisGatherDims A B N R wf).batchCoord (ix3 p q e) (1 : Fin 3)
        + (lastAxisGatherDims A B N R wf).offCoord (ix3 p q e) (1 : Fin 3) = _
    rw [GatherDims.batchCoord_eq_zero _ _ _ List.not_mem_nil, Nat.add_zero]
    unfold GatherDims.start
    rw [dif_neg (show (1 : Fin 3) ∉ [(2 : Fin 3)] from by decide), Nat.zero_add]
    rfl
  have e2 : ((lastAxisGatherDims A B N R wf).operandIdx (ix3 p q e) idx (2 : Fin 3)).val
      = min (idx (ix2 e (0 : Fin 1))).toInt.toNat (N - 1) := by
    show (lastAxisGatherDims A B N R wf).start (ix3 p q e) idx (2 : Fin 3)
        + (lastAxisGatherDims A B N R wf).batchCoord (ix3 p q e) (2 : Fin 3)
        + (lastAxisGatherDims A B N R wf).offCoord (ix3 p q e) (2 : Fin 3) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (2 : Fin 3) ∈ (lastAxisGatherDims A B N R wf).startIndexMap from List.mem_singleton.mpr rfl)]
    have hsi : (lastAxisGatherDims A B N R wf).siIdx (ix3 p q e)
        ⟨List.idxOf (2 : Fin 3) (lastAxisGatherDims A B N R wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  funext a
  refine Fin.ext ?_
  match a with
  | ⟨0, _⟩ => exact e0
  | ⟨1, _⟩ => exact e1
  | ⟨2, _⟩ => exact e2

/-- The same for ANY record of gather dimension numbers over those three shapes whose fields are this gather's (for a
    record given by its literal fields the seven equations hold by `rfl`). -/
theorem lastAxisGather_apply' {α : Type} {A B N R w : Nat} (hN : 0 < N)
    (d : GatherDims ⟨3, ![A, B, N]⟩ ⟨2, ![R, 1]⟩ ⟨3, ![A, B, R]⟩)
    (h1 : d.offsetDims = [0, 1]) (h2 : d.collapsedSliceDims = [2]) (h3 : d.operandBatchingDims = [])
    (h4 : d.startIndicesBatchingDims = []) (h5 : d.startIndexMap = [2]) (h6 : d.indexVectorDim = 1)
    (h7 : d.sliceSizes = ![A, B, 1])
    (x : (⟨3, ![A, B, N]⟩ : Shape).Idx → α) (idx : IVec ⟨2, ![R, 1]⟩ w) (p : Fin A) (q : Fin B) (e : Fin R) :
    Host.gather d x idx (ix3 p q e)
      = x (ix3 p q (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact lastAxisGather_apply hN wf x idx p q e

end Cert.Lib
-- ==== Proof.RefValue.lean ====
/-
  The reference's result, index by index, is the specification's flipped image.

  At place `n` the lookup is `pick`: the mask spread over the two unit axes reads the mask at `n`, the gather along the
  last axis reads the sinogram at the clamped entry the column names, the fill value is the same word. At pixel
  `(a, b)` the flip reads pixel `(255 − a, 255 − b)` of the unflipped image, which the 256 × 256 layout takes from voxel
  `r = (255 − a)·256 + (255 − b)`; the voxel is the host sum (from the initial value `0`) over `k : Fin 1024` of the
  product at place `r·1024 + k` — the 65536 × 1024 layout of the 67108864 places —, times the angular step, plus the
  bias spread over the unit axes. Nothing of real arithmetic is used beyond `0 + s = s`.
-/
import proofs.«128308_j61881888800891_1_alg».proof.Proof.RefOut
import proofs.«128308_j61881888800891_1_alg».proof.Proof.Spec
import proofs.«128308_j61881888800891_1_alg».proof.Proof.LibLastAxisGather
import proofs.«128308_j61881888800891_1_alg».proof.Proof.LibFlip
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.ReferenceIdeal.Straight

open Cert.ReferenceIdeal Cert.ReferenceIdeal.Gen Idealize.ShloMosaic Idealize.ShloMosaic.ValueIdx

/-- The lookup at place `n`. -/
theorem refTake_apply (x : FVec Ideal S1x1x376832 .f32) (v5 : IVec S67108864x1 32) (inb : IVec S67108864 1)
    (n : Fin 67108864) :
    refTake (F := Ideal) x v5 inb (ix3 (0 : Fin 1) (0 : Fin 1) n) = Cert.Spec.pick x v5 inb n := by
  unfold refTake Cert.Spec.pick
  rw [select_apply]
  have h1 : broadcastInDim S1x1x67108864 ![2] bcast_S67108864_S1x1x67108864_2 inb (ix3 (0 : Fin 1) (0 : Fin 1) n)
      = inb (ix1 n) :=
    broadcastInDim_apply _ _ inb _ (ix1 n) fun a => by
      match a with
      | ⟨0, _⟩ => rfl
  have h2 : Host.gather gather_S1x1x376832_S67108864x1_S1x1x67108864_01_2_n_n_2_1_111 x v5
        (ix3 (0 : Fin 1) (0 : Fin 1) n)
      = x (ix3 (0 : Fin 1) (0 : Fin 1)
          (⟨min (v5 (ix2 n (0 : Fin 1))).toInt.toNat (376832 - 1), by omega⟩ : Fin 376832)) :=
    Cert.Lib.lastAxisGather_apply' (by omega) _ rfl rfl rfl rfl rfl rfl rfl x v5 0 0 n
  have h3 : broadcastInDim S1x1x67108864 ![] bcast_S_S1x1x67108864 (constant (F := Ideal) S_ .f32 0x7FC00000#32)
        (ix3 (0 : Fin 1) (0 : Fin 1) n) = Ideal.ofBits .f32 0x7FC00000#32 :=
    broadcastInDim_scalar_apply _ _ _
  rw [h1, h2, h3]

/-- Over result index `(0, 0, r)`, the source index with `k` on the reduced last axis is `(0, 0, r, k)`. -/
theorem lift_last4 (h : S1x1x65536x1024.Reduces [3] S1x1x65536) (r : Fin 65536) (k : Fin 1024) :
    h.lift (ix3 (0 : Fin 1) (0 : Fin 1) r) k = ix4 (0 : Fin 1) (0 : Fin 1) r k := by
  funext d
  apply Fin.ext
  match d with
  | ⟨0, _⟩ => rfl
  | ⟨1, _⟩ => rfl
  | ⟨2, _⟩ => rfl
  | ⟨3, _⟩ => rfl

/-- From the looked-up values to pixel `(a, b)`: voxel `(255 − a)·256 + (255 − b)`'s weighted sum, scaled, plus its
    bias. -/
theorem refTail_apply (g : FVec Ideal S1x1x67108864 .f32) (w : FVec Ideal S67108864 .f32) (b : FVec Ideal S65536 .f32)
    (u v : Fin 1) (p q : Fin 256) :
    refTail (F := Ideal) g w b (ix4 u v p q)
      = (∑ k : Fin 1024, g (ix3 (0 : Fin 1) (0 : Fin 1) (Cert.Spec.place (Cert.Spec.flipped p q) k))
            * w (ix1 (Cert.Spec.place (Cert.Spec.flipped p q) k))) * Ideal.ofBits .f32 0x3B490FDB#32
          + b (ix1 (Cert.Spec.flipped p q)) := by
  have hu : u.val = 0 := by omega
  have hv : v.val = 0 := by omega
  have hp : p.rev.val = 255 - p.val := by rw [Fin.val_rev]; omega
  have hq : q.rev.val = 255 - q.val := by rw [Fin.val_rev]; omega
  unfold refTail
  rw [Cert.Lib.reverse_last2_apply]
  refine (shapeCast_apply _ _ (ix4 u v p.rev q.rev) (ix3 (0 : Fin 1) (0 : Fin 1) (Cert.Spec.flipped p q)) (by
    rw [Shape.rowMajor_val_three, Shape.rowMajor_val_four]
    show ((0 * 1 + 0) * 65536 + ((255 - p.val) * 256 + (255 - q.val)))
      = (((u.val * 1 + v.val) * 256 + p.rev.val) * 256 + q.rev.val)
    rw [hu, hv, hp, hq]; omega)).trans ?_
  rw [addf_apply, mulf_apply, hostReduceAdd_apply,
    Ideal.hostReduceAdd_single reducesTo_S1x1x65536x1024_S1x1x65536_d3 (by decide)]
  have hs : broadcastInDim S1x1x65536 ![] bcast_S_S1x1x65536 (constant (F := Ideal) S_ .f32 0x3B490FDB#32)
        (ix3 (0 : Fin 1) (0 : Fin 1) (Cert.Spec.flipped p q)) = Ideal.ofBits .f32 0x3B490FDB#32 :=
    broadcastInDim_scalar_apply _ _ _
  have hb : broadcastInDim S1x1x65536 ![2] bcast_S65536_S1x1x65536_2 b
        (ix3 (0 : Fin 1) (0 : Fin 1) (Cert.Spec.flipped p q)) = b (ix1 (Cert.Spec.flipped p q)) :=
    broadcastInDim_apply _ _ b _ (ix1 (Cert.Spec.flipped p q)) fun a => by
      match a with
      | ⟨0, _⟩ => rfl
  rw [hs, hb]
  have h0 : constant (F := Ideal) S_ .f32 0x00000000#32 (Shape.Idx.first h_S_) = 0 := Ideal.ofBits_zero_f32
  rw [h0, zero_add]
  refine congrArg₂ (· + ·) (congrArg₂ (· * ·) (Finset.sum_congr rfl fun k _ => ?_) rfl) rfl
  refine (congrArg (shapeCast S1x1x65536x1024
    (mulf g (broadcastInDim S1x1x67108864 ![2] bcast_S67108864_S1x1x67108864_2 w)) shapeCasts_S1x1x67108864_S1x1x65536x1024)
    (lift_last4 _ (Cert.Spec.flipped p q) k)).trans ?_
  refine (shapeCast_apply _ _ (ix4 (0 : Fin 1) (0 : Fin 1) (Cert.Spec.flipped p q) k)
    (ix3 (0 : Fin 1) (0 : Fin 1) (Cert.Spec.place (Cert.Spec.flipped p q) k)) (by
    rw [Shape.rowMajor_val_three, Shape.rowMajor_val_four]
    show ((0 * 1 + 0) * 67108864 + (((255 - p.val) * 256 + (255 - q.val)) * 1024 + k.val))
      = (((0 * 1 + 0) * 65536 + ((255 - p.val) * 256 + (255 - q.val))) * 1024 + k.val)
    omega)).trans ?_
  rw [mulf_apply]
  refine congrArg₂ (· * ·) rfl ?_
  exact broadcastInDim_apply _ _ w _ (ix1 (Cert.Spec.place (Cert.Spec.flipped p q) k)) fun a => by
    match a with
    | ⟨0, _⟩ => rfl

/-- THE REFERENCE IS THE SPECIFICATION: its result term is the flipped image of the voxels. -/
theorem refOut_eq (x : FVec Ideal S1x1x376832 .f32) (w : FVec Ideal S67108864 .f32) (b : FVec Ideal S65536 .f32)
    (idx : IVec S67108864 32) :
    refOut (F := Ideal) x w b idx
      = Cert.Spec.image x w b (Cert.Spec.normIdx takeFacts idx)
          (Cert.Spec.inBounds takeFacts (Cert.Spec.normIdx takeFacts idx)) := by
  funext i
  obtain ⟨u, v, p, q, rfl⟩ : ∃ (u v : Fin 1) (p q : Fin 256), i = ix4 u v p q := ⟨i 0, i 1, i 2, i 3, eq_ix4 i⟩
  unfold refOut
  rw [refTail_apply]
  unfold Cert.Spec.image Cert.Spec.voxel
  refine congrArg₂ (· + ·) (congrArg₂ (· * ·) (Finset.sum_congr rfl fun k _ => ?_) rfl) rfl
  rw [refTake_apply]

end Cert.ReferenceIdeal.Straight

end
-- ==== Proof.lean ====
/-
  The weighted backprojection kernel against its jnp reference, on the extended reals.

  Both programs look a sinogram up at 67108864 places (a negative index wrapped once, a place still outside giving the
  fill value), weight the values, sum each voxel's 1024 consecutive places, scale by the angular step, add the voxel's
  bias, and show the 65536 voxels as a 256 × 256 image flipped along both axes. They differ in how the work is laid
  out: the reference looks the rank-3 sinogram up along its last axis and sums on the host over a
  1 × 1 × 65536 × 1024 layout; the kernel program looks the sinogram up as a vector, lays values and weights out as
  65536 × 1024, and a kernel region of 64 grid points computes the 65536 × 1 result column band by band (rows
  `1024·t … 1024·t + 1023` at point `t`: entry by entry products, a sum along each row, the scaling, the bias), after
  which the host reshapes and flips.

  Index by index both results are ONE function of the argument arrays (`Cert.Spec.image`): the kernel program's by
  `Cert.KernelIdeal.Hand.kerOut_eq` over its run (`Cert.KernelIdeal.Hand.run`: the bands tile the column, each band a
  band of one function of the arrays the region reads), the reference's by `Cert.ReferenceIdeal.Straight.refOut_eq` over
  its run (`Cert.ReferenceIdeal.Straight.run`). The two sums run over the same 1024 products in the same finite index
  type, and the only law of arithmetic used is `0 + s = s` for the host sum's initial value, so nothing is asked of the
  inputs: the precondition is never opened. The idealization rewrote no operation, so there is nothing to preserve.
-/
import proofs.«128308_j61881888800891_1_alg».proof.Defs
import proofs.«128308_j61881888800891_1_alg».proof.Proof.Gen.Kernel
import proofs.«128308_j61881888800891_1_alg».proof.Proof.Gen.Kernel.Frame
import proofs.«128308_j61881888800891_1_alg».proof.Proof.Gen.KernelIdeal
import proofs.«128308_j61881888800891_1_alg».proof.Proof.Gen.KernelIdeal.Frame
import proofs.«128308_j61881888800891_1_alg».proof.Proof.Gen.ReferenceIdeal
import proofs.«128308_j61881888800891_1_alg».proof.Proof.Gen.Pre_finite_inputs
import proofs.«128308_j61881888800891_1_alg».proof.Proof.KernelRun
import proofs.«128308_j61881888800891_1_alg».proof.Proof.KernelValue
import proofs.«128308_j61881888800891_1_alg».proof.Proof.RefOut
import proofs.«128308_j61881888800891_1_alg».proof.Proof.RefValue
import Idealize.ShloMosaic.Adequacy
import Idealize.ShloMosaic.Init

noncomputable section

namespace Cert.Proof

open Idealize.ShloMosaic Idealize.SL.Sem

/-- The kernel program as printed runs and keeps its arguments: the frame of its one region and the host lines
    around it. -/
theorem frame_kernel : Cert.frame_Kernel (hKernel := Cert.Kernel.Gen.facts) (hPre_finite_inputs := Cert.Pre_finite_inputs.Gen.facts) :=
  fun m ρ _ => Cert.Kernel.Gen.frame m ρ

/-- The same at the ideal values. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Straight.run (F := Ideal) m ρ)

/-- From memories that agree on the four arguments both programs end at the flipped image of the voxels of those
    arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2, Cert.ReferenceIdeal.Straight.refOut_eq]
  exact (Cert.KernelIdeal.Hand.kerOut_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
